-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1x4096x1024 : Shape := ⟨3, ![1, 4096, 1024]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x4096x1024 : S_.BroadcastsInDim S1x4096x1024 (![] : Fin 0 → Fin S1x4096x1024.rank)
  reducesTo_S1x4096x1024_S_d0_1_2 : S1x4096x1024.ReducesTo [0, 1, 2] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x1024 .f32) (main_arg5 : FVec F S4096 .f32) (main_arg6 : FVec F S4096 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S4096x1024 .f32) (main_arg1 : FVec F S1x4096x1024 .f32) (main_arg2 : FVec F S1x4096x1024 .f32) (main_arg3 : FVec F S4096x1024 .f32) (main_arg4 : FVec F S4096x1024 .f32) (main_arg5 : FVec F S4096 .f32) (main_arg6 : FVec F S4096 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x4096x1024 .f32 := Host.absf main_arg1
  let main_cst_0 : FVec F S_ .f32 := constant S_ .f32 0x7F800000#32
  let main_v5 : FVec F S1x4096x1024 .f32 := broadcastInDim S1x4096x1024 ![] bcast_S_S1x4096x1024 main_cst_0
  let main_v6 : IVec S1x4096x1024 1 := cmpf .olt main_v4 main_v5
  let main_c_1 : IVec S_ 1 := constantI S_ 1 1#1
  let main_v7 : IVec S_ 1 := (fun x v => Host.reduce IntOp.andi x v reducesTo_S1x4096x1024_S_d0_1_2 h_S_) main_v6 main_c_1
  let main_v8 : IVec S_ 1 := andi main_v3 main_v7
  let main_v9 : FVec F S1x4096x1024 .f32 := Host.absf main_arg2
  let main_cst_2 : FVec F S_ .f32 := constant S_ .f32 0x7F800000#32
  let main_v10 : FVec F S1x4096x1024 .f32 := broadcastInDim S1x4096x1024 ![] bcast_S_S1x4096x1024 main_cst_2
  let main_v11 : IVec S1x4096x1024 1 := cmpf .olt main_v9 main_v10
  let main_c_3 : IVec S_ 1 := constantI S_ 1 1#1
  let main_v12 : IVec S_ 1 := (fun x v => Host.reduce IntOp.andi x v reducesTo_S1x4096x1024_S_d0_1_2 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_v13 main_v16
-- ==== Kernel.lean ====
abbrev S4096x1024 : Shape := ⟨2, ![4096, 1024]⟩
abbrev S1x4096x1024 : Shape := ⟨3, ![1, 4096, 1024]⟩
abbrev S4096 : Shape := ⟨1, ![4096]⟩
abbrev S1x4096 : Shape := ⟨2, ![1, 4096]⟩
abbrev S4096x2048 : Shape := ⟨2, ![4096, 2048]⟩
abbrev S256x1024 : Shape := ⟨2, ![256, 1024]⟩
abbrev S256x2048 : Shape := ⟨2, ![256, 2048]⟩
abbrev S256x4096 : Shape := ⟨2, ![256, 4096]⟩

abbrev nBuf : Space → Nat
  | .hbm => 15
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x4096x1024, .f32⟩
  | .hbm, ⟨2, _⟩ => ⟨S1x4096x1024, .f32⟩
  | .hbm, ⟨3, _⟩ => ⟨S4096x1024, .f32⟩
  | .hbm, ⟨4, _⟩ => ⟨S4096x1024, .f32⟩
  | .hbm, ⟨5, _⟩ => ⟨S4096, .f32⟩
  | .hbm, ⟨6, _⟩ => ⟨S4096, .f32⟩
  | .hbm, ⟨7, _⟩ => ⟨S4096x1024, .f32⟩
  | .hbm, ⟨8, _⟩ => ⟨S4096x1024, .f32⟩
  | .hbm, ⟨9, _⟩ => ⟨S4096, .f32⟩
  | .hbm, ⟨10, _⟩ => ⟨S1x4096, .f32⟩
  | .hbm, ⟨11, _⟩ => ⟨S4096x2048, .f32⟩
  | .hbm, ⟨12, _⟩ => ⟨S4096x2048, .bf16⟩
  | .hbm, ⟨13, _⟩ => ⟨S4096x1024, .f32⟩
  | .hbm, ⟨14, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4096x2048, .bf16⟩
  | .local _ .vmem, ⟨7, _⟩ => ⟨S1x4096, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S1x4096x1024_S4096x1024 : S1x4096x1024.ShapeCasts S4096x1024
  shapeCasts_S4096_S1x4096 : S4096.ShapeCasts S1x4096
  concatenates_S4096x1024_S4096x1024_S4096x2048_d1 : Shape.Concatenates [S4096x1024, S4096x1024] S4096x2048 1
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  concatenates_S256x1024_S256x1024_S256x2048_d1 : Shape.Concatenates [S256x1024, S256x1024] S256x2048 1
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x2048_S4096x2048_S256x4096_1_1_0_0_n_n_wf : DotDims.WF S256x2048 S4096x2048 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x2048.size a ≤ S4096x2048.size a
  hwx0_3 : ∀ i : grid0.Coords, EltTy.bits .bf16 = 32 ∨ (Rect.block (s := S4096x2048) S4096x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S4096x1024.size a
  hwx0_5 : ∀ i : grid0.Coords, EltTy.bits .f32 = 32 ∨ (Rect.block (s := S4096x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)

variable [Facts₀]

def dot_S256x2048_S4096x2048_S256x4096_1_1_0_0_n_n : DotDims S256x2048 S4096x2048 S256x4096 where
  lhsContracting := [1]
  rhsContracting := [1]
  lhsNonContracting := [0]
  rhsNonContracting := [0]
  lhsBatch := []
  rhsBatch := []
  wf := dot_S256x2048_S4096x2048_S256x4096_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4096x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1x4096x1024 : Shape := ⟨3, ![1, 4096, 1024]⟩
abbrev S4096 : Shape := ⟨1, ![4096]⟩
abbrev S1024x4096 : Shape := ⟨2, ![1024, 4096]⟩
abbrev S4096x4096 : Shape := ⟨2, ![4096, 4096]⟩
abbrev S1x4096 : Shape := ⟨2, ![1, 4096]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x4096x1024, .f32⟩
  | .hbm, ⟨2, _⟩ => ⟨S1x4096x1024, .f32⟩
  | .hbm, ⟨3, _⟩ => ⟨S4096x1024, .f32⟩
  | .hbm, ⟨4, _⟩ => ⟨S4096x1024, .f32⟩
  | .hbm, ⟨5, _⟩ => ⟨S4096, .f32⟩
  | .hbm, ⟨6, _⟩ => ⟨S4096, .f32⟩
  | .hbm, ⟨7, _⟩ => ⟨S4096x1024, .f32⟩
  | .hbm, ⟨8, _⟩ => ⟨S4096x1024, .f32⟩
  | .hbm, ⟨9, _⟩ => ⟨S1024x4096, .f32⟩
  | .hbm, ⟨10, _⟩ => ⟨S4096x4096, .f32⟩
  | .hbm, ⟨11, _⟩ => ⟨S1024x4096, .f32⟩
  | .hbm, ⟨12, _⟩ => ⟨S4096x4096, .f32⟩
  | .hbm, ⟨13, _⟩ => ⟨S4096x4096, .f32⟩
  | .hbm, ⟨14, _⟩ => ⟨S4096, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  shapeCasts_S1x4096x1024_S4096x1024 : S1x4096x1024.ShapeCasts S4096x1024
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.Spec.lean ====
/-
  One step of an LSTM cell, as a function of its seven argument arrays, entry by entry, on the extended reals.

  For a batch row r and a gate column j (4096 columns: the input, forget, candidate and output gates, 1024 columns each)
  the pre-activation is

      gate r j = (Σ_{k<1024} x[r,k] · w_ih[j,k]  +  Σ_{k<1024} h[r,k] · w_hh[j,k])  +  (b_ih[j] + b_hh[j]),

  the next cell state is  c'[r,q] = σ(gate r (1024+q)) · c[r,q] + σ(gate r q) · tanh(gate r (2048+q)),
  and the next hidden state is  h'[r,q] = σ(gate r (3072+q)) · tanh(c'[r,q]).
  The previous states h and c arrive with a leading axis of extent one.

  Also here: the same pre-activation (and the two results over it: `cellBlk`, `hiddenBlk`) written over one block of 256 batch rows against the two weight matrices laid
  side by side as one [4096, 2048] matrix and the two biases already added into one [1, 4096] row (`gateBlk`), and the
  one law that joins the two spellings: a sum over 2048 terms is the sum over its first 1024 plus the sum over its
  last 1024 (`sum_halves`) — commutativity and associativity of addition only, so nothing here asks an entry to be
  finite.
-/
import Idealize.ShloMosaic.PureOps.Ideal
import Idealize.ShloMosaic.Lib.ValueIdx

noncomputable section

open scoped BigOperators

namespace Cert.LstmCell

open Idealize.ShloMosaic Idealize.ShloMosaic.ValueIdx

/-- Batch rows by features (and: gate columns by features, for a weight matrix). -/
abbrev SMat : Shape := ⟨2, ![4096, 1024]⟩
/-- A state array: one layer, batch rows, hidden width. -/
abbrev SState : Shape := ⟨3, ![1, 4096, 1024]⟩
/-- A bias: one entry per gate column. -/
abbrev SBias : Shape := ⟨1, ![4096]⟩

/-- Column `o + q` of the pre-activation: gate number `o / 1024`, hidden unit `q`. -/
def col (o : Nat) (ho : o + 1024 ≤ 4096) (q : Fin 1024) : Fin 4096 := ⟨o + q.val, by have := q.isLt; omega⟩

@[simp] theorem col_val (o : Nat) (ho : o + 1024 ≤ 4096) (q : Fin 1024) : (col o ho q).val = o + q.val := rfl

/-- Position `k` of the first half of a row of 2048. -/
def lo (k : Fin 1024) : Fin 2048 := ⟨k.val, by have := k.isLt; omega⟩
/-- Position `k` of the second half of a row of 2048. -/
def hi (k : Fin 1024) : Fin 2048 := ⟨1024 + k.val, by have := k.isLt; omega⟩

@[simp] theorem lo_val (k : Fin 1024) : (lo k).val = k.val := rfl
@[simp] theorem hi_val (k : Fin 1024) : (hi k).val = 1024 + k.val := rfl

/-- A sum over 2048 positions is the sum over the first half plus the sum over the second half. -/
theorem sum_halves {M : Type*} [AddCommMonoid M] (f : Fin 2048 → M) :
    ∑ k : Fin 2048, f k = (∑ k : Fin 1024, f (lo k)) + ∑ k : Fin 1024, f (hi k) :=
  (Fin.sum_univ_add (a := 1024) (b := 1024) f).trans
    (congr (congrArg HAdd.hAdd (Finset.sum_congr rfl fun _ _ => rfl)) (Finset.sum_congr rfl fun _ _ => rfl))

section Arrays

variable (x : FVec Ideal SMat .f32) (h0 c0 : FVec Ideal SState .f32) (wih whh : FVec Ideal SMat .f32)
  (bih bhh : FVec Ideal SBias .f32)

/-- The pre-activation of gate column `j` for batch row `r`. -/
def gate (r j : Fin 4096) : EReal :=
  ((∑ k : Fin 1024, x (ix2 r k) * wih (ix2 j k)) + ∑ k : Fin 1024, h0 (ix3 0 r k) * whh (ix2 j k))
    + (bih (ix1 j) + bhh (ix1 j))

/-- The next cell state: forget gate times the old state plus input gate times the candidate. -/
def cellNext (r : Fin 4096) (q : Fin 1024) : EReal :=
  Ideal.logistic (gate x h0 wih whh bih bhh r (col 1024 (by decide) q)) * c0 (ix3 0 r q)
    + Ideal.logistic (gate x h0 wih whh bih bhh r (col 0 (by decide) q))
      * Ideal.tanh (gate x h0 wih whh bih bhh r (col 2048 (by decide) q))

/-- The next hidden state: output gate times tanh of the next cell state. -/
def hiddenNext (r : Fin 4096) (q : Fin 1024) : EReal :=
  Ideal.logistic (gate x h0 wih whh bih bhh r (col 3072 (by decide) q)) * Ideal.tanh (cellNext x h0 c0 wih whh bih bhh r q)

/-- The next cell state as an array. -/
def cellArr : FVec Ideal SMat .f32 := fun i => cellNext x h0 c0 wih whh bih bhh (i 0) (i 1)
/-- The next hidden state as an array. -/
def hiddenArr : FVec Ideal SMat .f32 := fun i => hiddenNext x h0 c0 wih whh bih bhh (i 0) (i 1)

theorem cellArr_apply (r : Fin 4096) (q : Fin 1024) :
    cellArr x h0 c0 wih whh bih bhh (ix2 r q) = cellNext x h0 c0 wih whh bih bhh r q := rfl
theorem hiddenArr_apply (r : Fin 4096) (q : Fin 1024) :
    hiddenArr x h0 c0 wih whh bih bhh (ix2 r q) = hiddenNext x h0 c0 wih whh bih bhh r q := rfl

end Arrays

section Block

/-- The same pre-activation over one block of 256 batch rows: the block of inputs `X`, the block of previous hidden
    states `H`, the two weight matrices side by side as `W` (columns 0–1023 meet `X`, columns 1024–2047 meet `H`) and
    the summed biases as the row `B`. -/
def gateBlk (X H : FVec Ideal ⟨2, ![256, 1024]⟩ .f32) (W : FVec Ideal ⟨2, ![4096, 2048]⟩ .bf16)
    (B : FVec Ideal ⟨2, ![1, 4096]⟩ .f32) (p : Fin 256) (j : Fin 4096) : EReal :=
  ((∑ k : Fin 1024, X (ix2 p k) * W (ix2 j (lo k))) + ∑ k : Fin 1024, H (ix2 p k) * W (ix2 j (hi k)))
    + B (ix2 0 j)

/-- The next cell state over one block: the block of previous cell states is `C`. -/
def cellBlk (X H C : FVec Ideal ⟨2, ![256, 1024]⟩ .f32) (W : FVec Ideal ⟨2, ![4096, 2048]⟩ .bf16)
    (B : FVec Ideal ⟨2, ![1, 4096]⟩ .f32) (p : Fin 256) (q : Fin 1024) : EReal :=
  Ideal.logistic (gateBlk X H W B p (col 1024 (by decide) q)) * C (ix2 p q)
    + Ideal.logistic (gateBlk X H W B p (col 0 (by decide) q)) * Ideal.tanh (gateBlk X H W B p (col 2048 (by decide) q))

/-- The next hidden state over one block. -/
def hiddenBlk (X H C : FVec Ideal ⟨2, ![256, 1024]⟩ .f32) (W : FVec Ideal ⟨2, ![4096, 2048]⟩ .bf16)
    (B : FVec Ideal ⟨2, ![1, 4096]⟩ .f32) (p : Fin 256) (q : Fin 1024) : EReal :=
  Ideal.logistic (gateBlk X H W B p (col 3072 (by decide) q)) * Ideal.tanh (cellBlk X H C W B p q)

end Block

end Cert.LstmCell

end
-- ==== Proof.KernelGate.lean ====
/-
  The body's pre-activation, read at one entry.

  The body lays the block of inputs and the block of previous hidden states side by side as one [256, 2048] matrix,
  multiplies it into a zero accumulator against the [4096, 2048] weights contracting both operands' last axis, and adds
  the bias row broadcast down the 256 rows. At the extended reals the format changes are the identity and the product
  is the plain sum over the 2048 contraction positions; the first 1024 of them read the inputs and the last 1024 the
  hidden states, so the entry (p, j) is the block pre-activation `gateBlk` of the specification.
-/
import proofs.«132418_j76630806496011_2_alg».proof.Proof.Gen.KernelIdeal.Skeleton
import proofs.«132418_j76630806496011_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.LstmCell

/-- The product's dimension numbers: both operands contracted on their last axis. -/
abbrev D : DotDims S256x2048 S4096x2048 S256x4096 := dot_S256x2048_S4096x2048_S256x4096_1_1_0_0_n_n

/-- The left operand's row is the output's row. -/
theorem lhs_row (i : S256x4096.Idx) (q : D.contr.Idx) : (D.lhsIdx i q 0).val = (i 0).val := by
  unfold DotDims.lhsIdx
  rw [dif_neg (show ¬(0 : Fin S256x2048.rank) ∈ D.lhsBatch by decide),
    dif_pos (show (0 : Fin S256x2048.rank) ∈ D.lhsNonContracting by decide)]
  rfl

/-- The left operand's column is the contraction position. -/
theorem lhs_pos (i : S256x4096.Idx) (q : D.contr.Idx) : (D.lhsIdx i q 1).val = (q ⟨0, by decide⟩).val :=
  D.lhsIdx_val_of_single rfl i q

/-- The right operand's row is the output's column. -/
theorem rhs_row (i : S256x4096.Idx) (q : D.contr.Idx) : (D.rhsIdx i q 0).val = (i 1).val := by
  unfold DotDims.rhsIdx
  rw [dif_neg (show ¬(0 : Fin S4096x2048.rank) ∈ D.rhsBatch by decide),
    dif_pos (show (0 : Fin S4096x2048.rank) ∈ D.rhsNonContracting by decide)]
  rfl

/-- The right operand's column is the contraction position. -/
theorem rhs_pos (i : S256x4096.Idx) (q : D.contr.Idx) : (D.rhsIdx i q 1).val = (q ⟨0, by decide⟩).val :=
  D.rhsIdx_val_of_single rfl i q

/-- The product into the zero accumulator at (p, j): the sum over the 2048 contraction positions. -/
theorem matmul_at (L : FVec Ideal S256x2048 .bf16) (R : FVec Ideal S4096x2048 .bf16) (p : Fin 256) (j : Fin 4096) :
    matmul (F := Ideal) D none L R (constant S256x4096 .f32 0x00000000#32) (ix2 p j)
      = ∑ k : Fin 2048, L (ix2 p k) * R (ix2 j k) := by
  refine (Ideal.matmul_constant_zero_apply D none L R (ix2 p j)).trans ?_
  rw [← Equiv.sum_comp (contrEquiv1 D 2048 rfl rfl).symm]
  refine Finset.sum_congr rfl fun k _ => ?_
  have hk := contrEquiv1_symm_val D 2048 rfl rfl k
  have el : D.lhsIdx (ix2 p j) ((contrEquiv1 D 2048 rfl rfl).symm k) = ix2 p k := funext fun a => Fin.ext (by
    match a with
    | ⟨0, _⟩ => exact lhs_row _ _
    | ⟨1, _⟩ => exact (lhs_pos _ _).trans hk)
  have er : D.rhsIdx (ix2 p j) ((contrEquiv1 D 2048 rfl rfl).symm k) = ix2 j k := funext fun a => Fin.ext (by
    match a with
    | ⟨0, _⟩ => exact rhs_row _ _
    | ⟨1, _⟩ => exact (rhs_pos _ _).trans hk)
  rw [el, er]

/-- The two blocks side by side, read in the first half: the inputs. -/
theorem concat_lo (X H : FVec Ideal S256x1024 .bf16) (p : Fin 256) (k : Fin 1024) :
    concatenate S256x2048 1 [⟨S256x1024, X⟩, ⟨S256x1024, H⟩] concatenates_S256x1024_S256x1024_S256x2048_d1 (ix2 p (lo k))
      = X (ix2 p k) :=
  concatenate_pair_apply_left (1 : Fin S256x2048.rank) X H concatenates_S256x1024_S256x1024_S256x2048_d1 (ix2 p (lo k)) rfl (ix2 p k)
    (fun b => match b with | ⟨0, _⟩ => rfl | ⟨1, _⟩ => rfl)

/-- The two blocks side by side, read in the second half: the hidden states. -/
theorem concat_hi (X H : FVec Ideal S256x1024 .bf16) (p : Fin 256) (k : Fin 1024) :
    concatenate S256x2048 1 [⟨S256x1024, X⟩, ⟨S256x1024, H⟩] concatenates_S256x1024_S256x1024_S256x2048_d1 (ix2 p (hi k))
      = H (ix2 p k) :=
  concatenate_pair_apply_right (1 : Fin S256x2048.rank) X H concatenates_S256x1024_S256x1024_S256x2048_d1 (ix2 p (hi k)) rfl rfl (ix2 p k)
    (fun b hb => match b, hb with | ⟨0, _⟩, _ => rfl | ⟨1, _⟩, hb => absurd rfl hb)
    (by show k.val + 1024 = 1024 + k.val; omega)

/-- THE PRE-ACTIVATION AT AN ENTRY: the body's sum of the product and the broadcast bias row, at (p, j), is the block
    pre-activation of the specification. -/
theorem pay1_apply (X H : Vec Ideal S256x1024 .f32) (W : Vec Ideal S4096x2048 .bf16) (B : Vec Ideal S1x4096 .f32)
    (p : Fin 256) (j : Fin 4096) :
    k0_pay1 (F := Ideal) X H W B (ix2 p j) = gateBlk X H W B p j := by
  unfold k0_pay1 gateBlk
  rw [shapeCast_self, shapeCast_self, shapeCast_self]
  refine congr (congrArg HAdd.hAdd ?_) ?_
  · refine (matmul_at _ _ p j).trans ?_
    rw [sum_halves]
    refine congr (congrArg HAdd.hAdd (Finset.sum_congr rfl fun k _ => ?_)) (Finset.sum_congr rfl fun k _ => ?_)
    · rw [concat_lo]; rfl
    · rw [concat_hi]; rfl
  · exact broadcastTo_1b_ab_apply B broadcasts_S1x4096_S256x4096 p j

end Cert.KernelIdeal.Body

end
-- ==== Proof.BodyValue.lean ====
/-
  What the body leaves in its two output blocks, entry by entry.

  The body slices the [256, 4096] pre-activation into the four gates' 1024 columns each, applies the sigmoid to the
  input, forget and output gates and tanh to the candidate, and stores the next hidden state and the next cell state.
  The generated value leg reads each stored block as one function of the body's loads with the pre-activation kept
  whole; here each of its reads of the pre-activation is placed at its gate's column (offset + q) and replaced by the
  block pre-activation, which gives the specification's `cellBlk` and `hiddenBlk`.
-/
import proofs.«132418_j76630806496011_2_alg».proof.Proof.Gen.KernelIdeal.Value
import proofs.«132418_j76630806496011_2_alg».proof.Proof.KernelGate

noncomputable section

namespace Cert.KernelIdeal.Body

open Cert.KernelIdeal Cert.KernelIdeal.Gen Cert.KernelIdeal.Value Idealize.ShloMosaic Idealize.ShloMosaic.ValueIdx Cert.LstmCell

variable (X H : Vec Ideal S256x1024 .f32) (W : Vec Ideal S4096x2048 .bf16) (B : Vec Ideal S1x4096 .f32) (C : Vec Ideal S256x1024 .f32)

/-- The pre-activation read at row p and at a column o + q is the block pre-activation of gate column `col o q`. -/
theorem gate_at (p : Fin 256) (q : Fin 1024) (o : Nat) (ho : o + 1024 ≤ 4096) (y : S256x4096.Idx)
    (h0 : (y 0).val = p.val) (h1 : (y 1).val = o + q.val) :
    k0_pay1 (F := Ideal) X H W B y = gateBlk X H W B p (col o ho q) := by
  have e : y = ix2 p (col o ho q) := funext fun a => Fin.ext (by
    match a with
    | ⟨0, _⟩ => exact h0
    | ⟨1, _⟩ => exact h1)
  rw [e]
  exact pay1_apply X H W B p (col o ho q)

/-- The stored next cell state at (p, q). -/
theorem cell_block_at (p : Fin 256) (q : Fin 1024) :
    E6 (F := Ideal) X H W B C (ix2 p q) = cellBlk X H C W B p q := by
  have gf := gate_at X H W B p q 1024 (by decide) (ix6_0 (ix2 p q)) rfl (by show q.val + 1024 = 1024 + q.val; omega)
  have gi := gate_at X H W B p q 0 (by decide) (ix6_2 (ix2 p q)) rfl (by show q.val = 0 + q.val; omega)
  have gg := gate_at X H W B p q 2048 (by decide) (ix6_3 (ix2 p q)) rfl (by show q.val + 2048 = 2048 + q.val; omega)
  have hc : ix6_1 (ix2 p q) = ix2 p q := funext fun a => by match a with | ⟨0, _⟩ => rfl | ⟨1, _⟩ => rfl
  unfold cellBlk
  show FloatOps.addf (FloatOps.mulf (FloatOps.logistic (k0_pay1 X H W B (ix6_0 (ix2 p q)))) (C (ix6_1 (ix2 p q))))
      (FloatOps.mulf (FloatOps.logistic (k0_pay1 X H W B (ix6_2 (ix2 p q)))) (FloatOps.tanh (k0_pay1 X H W B (ix6_3 (ix2 p q))))) = _
  rw [gf, gi, gg, hc]
  rfl

/-- The stored next hidden state at (p, q). -/
theorem hidden_block_at (p : Fin 256) (q : Fin 1024) :
    E5 (F := Ideal) X H W B C (ix2 p q) = hiddenBlk X H C W B p q := by
  have go := gate_at X H W B p q 3072 (by decide) (ix5_0 (ix2 p q)) rfl (by show q.val + 3072 = 3072 + q.val; omega)
  have gf := gate_at X H W B p q 1024 (by decide) (ix5_1 (ix2 p q)) rfl (by show q.val + 1024 = 1024 + q.val; omega)
  have gi := gate_at X H W B p q 0 (by decide) (ix5_3 (ix2 p q)) rfl (by show q.val = 0 + q.val; omega)
  have gg := gate_at X H W B p q 2048 (by decide) (ix5_4 (ix2 p q)) rfl (by show q.val + 2048 = 2048 + q.val; omega)
  have hc : ix5_2 (ix2 p q) = ix2 p q := funext fun a => by match a with | ⟨0, _⟩ => rfl | ⟨1, _⟩ => rfl
  unfold hiddenBlk cellBlk
  show FloatOps.mulf (FloatOps.logistic (k0_pay1 X H W B (ix5_0 (ix2 p q))))
      (FloatOps.tanh (FloatOps.addf (FloatOps.mulf (FloatOps.logistic (k0_pay1 X H W B (ix5_1 (ix2 p q)))) (C (ix5_2 (ix2 p q))))
        (FloatOps.mulf (FloatOps.logistic (k0_pay1 X H W B (ix5_3 (ix2 p q)))) (FloatOps.tanh (k0_pay1 X H W B (ix5_4 (ix2 p q))))))) = _
  rw [go, gf, gi, gg, hc]
  rfl

end Cert.KernelIdeal.Body

end
-- ==== Proof.KernelBlocks.lean ====
/-
  What each staged block holds, entry by entry, in terms of the seven argument arrays.

  The grid has 16 points; point t stages rows 256·t … 256·t + 255 of the inputs, of the previous hidden state and of
  the previous cell state, and (once, resident) the whole weight matrix and the whole bias row. Three of the staged
  arrays are written by host operations before the launch: the two states recast from [1, 4096, 1024] to [4096, 1024]
  (entry (r, k) is the state's entry (0, r, k)), the bias row (entry (0, j) is b_ih[j] + b_hh[j]) and the weights
  (the two weight matrices side by side along the feature axis, then a format change that is the identity on the
  extended reals: entry (j, k) is w_ih[j, k] in the first 1024 columns and w_hh[j, k − 1024] in the last 1024).
-/
import proofs.«132418_j76630806496011_2_alg».proof.Proof.Gen.KernelIdeal.Frame
import proofs.«132418_j76630806496011_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Cert.LstmCell

variable (m : (ℓ : Loc nD τ sig) → Buf (Elt Ideal) ℓ)

/-- The seven argument arrays as launched, on core `c`. -/
abbrev argX (c : Dev nD) : FVec Ideal SMat .f32 := m ((c.tc : Thread nD τ).loc main_arg0)
abbrev argH (c : Dev nD) : FVec Ideal SState .f32 := m ((c.tc : Thread nD τ).loc main_arg1)
abbrev argC (c : Dev nD) : FVec Ideal SState .f32 := m ((c.tc : Thread nD τ).loc main_arg2)
abbrev argWih (c : Dev nD) : FVec Ideal SMat .f32 := m ((c.tc : Thread nD τ).loc main_arg3)
abbrev argWhh (c : Dev nD) : FVec Ideal SMat .f32 := m ((c.tc : Thread nD τ).loc main_arg4)
abbrev argBih (c : Dev nD) : FVec Ideal SBias .f32 := m ((c.tc : Thread nD τ).loc main_arg5)
abbrev argBhh (c : Dev nD) : FVec Ideal SBias .f32 := m ((c.tc : Thread nD τ).loc main_arg6)

/-- The grid has 16 points. -/
theorem N16 : cfg0.N = 16 := N_0

/-- Row `p` of point `t`'s block is batch row `256·t + p`. -/
def row (t : Fin cfg0.N) (p : Fin 256) : Fin 4096 :=
  ⟨256 * t.val + p.val, by have := t.isLt; have := N16; have := p.isLt; omega⟩

@[simp] theorem row_val (t : Fin cfg0.N) (p : Fin 256) : (row t p).val = 256 * t.val + p.val := rfl

/-- The printed index maps, decided over the grid: the three row-blocked inputs and the two outputs are at block row
    `t`, block column 0; the weights and the bias row stay at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

/-! ## The arrays the host wrote before the launch -/

/-- The previous hidden state as the region finds it: the argument recast to [4096, 1024]. -/
theorem V_hidden (c : Dev nD) : (V m c main_v0 : S4096x1024.Idx → EReal)
    = shapeCast S4096x1024 (m ((c.tc : Thread nD τ).loc main_arg1)) shapeCasts_S1x4096x1024_S4096x1024 := by
  dsimp only [Gen.V, Gen.hostOps0]; after_results <;> rfl

/-- The previous cell state as the region finds it: the argument recast to [4096, 1024]. -/
theorem V_cell (c : Dev nD) : (V m c main_v1 : S4096x1024.Idx → EReal)
    = shapeCast S4096x1024 (m ((c.tc : Thread nD τ).loc main_arg2)) shapeCasts_S1x4096x1024_S4096x1024 := by
  dsimp only [Gen.V, Gen.hostOps0]; after_results <;> rfl

/-- The bias row as the region finds it: the two biases added, recast to [1, 4096]. -/
theorem V_bias (c : Dev nD) : (V m c main_v3 : S1x4096.Idx → EReal)
    = shapeCast S1x4096 (addf (F := Ideal) (s := S4096) (φ := .f32) (m ((c.tc : Thread nD τ).loc main_arg5)) (m ((c.tc : Thread nD τ).loc main_arg6))) shapeCasts_S4096_S1x4096 := by
  dsimp only [Gen.V, Gen.hostOps0]; after_results <;> rfl

/-- The weights as the region finds them: the two matrices side by side, then the format change. -/
theorem V_weights (c : Dev nD) : (V m c main_v5 : S4096x2048.Idx → EReal)
    = truncf (F := Ideal) .bf16 (concatenate S4096x2048 1 [⟨S4096x1024, m ((c.tc : Thread nD τ).loc main_arg3)⟩, ⟨S4096x1024, m ((c.tc : Thread nD τ).loc main_arg4)⟩]
        concatenates_S4096x1024_S4096x1024_S4096x2048_d1) bitsLt_bf16_f32 := by
  dsimp only [Gen.V, Gen.hostOps0]; after_results <;> rfl

/-! ## The staged blocks, entry by entry -/

/-- Point `t`'s block of the inputs at (p, k): the argument at (256·t + p, k). -/
theorem blk_x (c : Dev nD) (t : Fin cfg0.N) (p : Fin 256) (k : Fin 1024) :
    (iblk m c 0 t : Vec Ideal S256x1024 .f32) (ix2 p k)
      = argX m c (ix2 (row t p) k) := by
  obtain ⟨⟨e0, e1⟩, -⟩ := idx_facts t
  unfold iblk
  rw [View.read_apply]
  show (V m c main_arg0 : S4096x1024.Idx → EReal) (((cfg0.win 0).blk t).view.emb (ix2 p k)) = _
  have he : (((cfg0.win 0).blk t).view.emb (ix2 p k) : S4096x1024.Idx) = ix2 (row t p) k := by
    funext a; apply Fin.ext
    match a with
    | ⟨0, _⟩ => show win0_0.index t (0 : Fin 2) * 256 + 1 * p.val = 256 * t.val + p.val; rw [e0]; omega
    | ⟨1, _⟩ => show win0_0.index t (1 : Fin 2) * 1024 + 1 * k.val = k.val; rw [e1]; omega
  refine (congrArg (V m c main_arg0 : S4096x1024.Idx → EReal) he).trans ?_
  rw [V_main_arg0]

/-- Point `t`'s block of the previous hidden state at (p, k): the argument at (0, 256·t + p, k). -/
theorem blk_h (c : Dev nD) (t : Fin cfg0.N) (p : Fin 256) (k : Fin 1024) :
    (iblk m c 1 t : Vec Ideal S256x1024 .f32) (ix2 p k)
      = argH m c (ix3 0 (row t p) k) := by
  obtain ⟨-, ⟨e0, e1⟩, -⟩ := idx_facts t
  unfold iblk
  rw [View.read_apply]
  show (V m c main_v0 : S4096x1024.Idx → EReal) (((cfg0.win 1).blk t).view.emb (ix2 p k)) = _
  have he : (((cfg0.win 1).blk t).view.emb (ix2 p k) : S4096x1024.Idx) = ix2 (row t p) k := by
    funext a; apply Fin.ext
    match a with
    | ⟨0, _⟩ => show win0_1.index t (0 : Fin 2) * 256 + 1 * p.val = 256 * t.val + p.val; rw [e0]; omega
    | ⟨1, _⟩ => show win0_1.index t (1 : Fin 2) * 1024 + 1 * k.val = k.val; rw [e1]; omega
  refine (congrArg (V m c main_v0 : S4096x1024.Idx → EReal) he).trans ?_
  rw [V_hidden]
  exact shapeCast_1ab_ab_apply _ _ (row t p) k

/-- Point `t`'s block of the previous cell state at (p, k): the argument at (0, 256·t + p, k). -/
theorem blk_c (c : Dev nD) (t : Fin cfg0.N) (p : Fin 256) (k : Fin 1024) :
    (iblk m c 2 t : Vec Ideal S256x1024 .f32) (ix2 p k)
      = argC m c (ix3 0 (row t p) k) := by
  obtain ⟨-, -, ⟨e0, e1⟩, -⟩ := idx_facts t
  unfold iblk
  rw [View.read_apply]
  show (V m c main_v1 : S4096x1024.Idx → EReal) (((cfg0.win 2).blk t).view.emb (ix2 p k)) = _
  have he : (((cfg0.win 2).blk t).view.emb (ix2 p k) : S4096x1024.Idx) = ix2 (row t p) k := by
    funext a; apply Fin.ext
    match a with
    | ⟨0, _⟩ => show win0_2.index t (0 : Fin 2) * 256 + 1 * p.val = 256 * t.val + p.val; rw [e0]; omega
    | ⟨1, _⟩ => show win0_2.index t (1 : Fin 2) * 1024 + 1 * k.val = k.val; rw [e1]; omega
  refine (congrArg (V m c main_v1 : S4096x1024.Idx → EReal) he).trans ?_
  rw [V_cell]
  exact shapeCast_1ab_ab_apply _ _ (row t p) k

/-- The resident weights at (j, k): the region's weight array at (j, k), at every point. -/
theorem blk_w (c : Dev nD) (t : Fin cfg0.N) (j : Fin 4096) (k : Fin 2048) :
    (iblk m c 3 t : Vec Ideal S4096x2048 .bf16) (ix2 j k) = (V m c main_v5 : S4096x2048.Idx → EReal) (ix2 j k) := by
  obtain ⟨-, -, -, ⟨e0, e1⟩, -⟩ := idx_facts t
  unfold iblk
  rw [View.read_apply]
  show (V m c main_v5 : S4096x2048.Idx → EReal) (((cfg0.win 3).blk t).view.emb (ix2 j k)) = _
  refine congrArg (V m c main_v5 : S4096x2048.Idx → EReal) ?_
  funext a; apply Fin.ext
  match a with
  | ⟨0, _⟩ => show win0_3.index t (0 : Fin 2) * 4096 + 1 * j.val = j.val; rw [e0]; omega
  | ⟨1, _⟩ => show win0_3.index t (1 : Fin 2) * 2048 + 1 * k.val = k.val; rw [e1]; omega

/-- The resident weights in the first half of a row: the input weights. -/
theorem blk_w_lo (c : Dev nD) (t : Fin cfg0.N) (j : Fin 4096) (k : Fin 1024) :
    (iblk m c 3 t : Vec Ideal S4096x2048 .bf16) (ix2 j (lo k))
      = argWih m c (ix2 j k) := by
  rw [blk_w, V_weights]
  show concatenate S4096x2048 1 [⟨S4096x1024, _⟩, ⟨S4096x1024, _⟩] concatenates_S4096x1024_S4096x1024_S4096x2048_d1 (ix2 j (lo k)) = _
  exact concatenate_pair_apply_left (1 : Fin S4096x2048.rank) _ _ concatenates_S4096x1024_S4096x1024_S4096x2048_d1 (ix2 j (lo k)) rfl (ix2 j k)
    (fun b => match b with | ⟨0, _⟩ => rfl | ⟨1, _⟩ => rfl)

/-- The resident weights in the second half of a row: the recurrent weights. -/
theorem blk_w_hi (c : Dev nD) (t : Fin cfg0.N) (j : Fin 4096) (k : Fin 1024) :
    (iblk m c 3 t : Vec Ideal S4096x2048 .bf16) (ix2 j (hi k))
      = argWhh m c (ix2 j k) := by
  rw [blk_w, V_weights]
  show concatenate S4096x2048 1 [⟨S4096x1024, _⟩, ⟨S4096x1024, _⟩] concatenates_S4096x1024_S4096x1024_S4096x2048_d1 (ix2 j (hi k)) = _
  exact concatenate_pair_apply_right (1 : Fin S4096x2048.rank) _ _ concatenates_S4096x1024_S4096x1024_S4096x2048_d1 (ix2 j (hi k)) rfl rfl (ix2 j k)
    (fun b hb => match b, hb with | ⟨0, _⟩, _ => rfl | ⟨1, _⟩, hb => absurd rfl hb)
    (by show k.val + 1024 = 1024 + k.val; omega)

/-- The resident bias row at (0, j): the two biases' sum at j. -/
theorem blk_b (c : Dev nD) (t : Fin cfg0.N) (j : Fin 4096) :
    (iblk m c 4 t : Vec Ideal S1x4096 .f32) (ix2 0 j)
      = argBih m c (ix1 j) + argBhh m c (ix1 j) := by
  obtain ⟨-, -, -, -, ⟨e0, e1⟩, -⟩ := idx_facts t
  unfold iblk
  rw [View.read_apply]
  show (V m c main_v3 : S1x4096.Idx → EReal) (((cfg0.win 4).blk t).view.emb (ix2 0 j)) = _
  have he : (((cfg0.win 4).blk t).view.emb (ix2 0 j) : S1x4096.Idx) = ix2 0 j := by
    funext a; apply Fin.ext
    match a with
    | ⟨0, _⟩ => show win0_4.index t (0 : Fin 2) * 1 + 1 * 0 = 0; rw [e0]
    | ⟨1, _⟩ => show win0_4.index t (1 : Fin 2) * 4096 + 1 * j.val = j.val; rw [e1]; omega
  refine (congrArg (V m c main_v3 : S1x4096.Idx → EReal) he).trans ?_
  rw [V_bias]
  exact shapeCast_a_1a_apply _ _ 0 j

/-- THE BLOCK PRE-ACTIVATION OF POINT `t`'S STAGED BLOCKS is the specification's pre-activation of batch row
    256·t + p: the first half of the contraction meets the input weights, the second half the recurrent weights. -/
theorem gateBlk_blocks (c : Dev nD) (t : Fin cfg0.N) (p : Fin 256) (j : Fin 4096) :
    gateBlk (iblk m c 0 t) (iblk m c 1 t) (iblk m c 3 t) (iblk m c 4 t) p j
      = gate (argX m c) (argH m c) (argWih m c) (argWhh m c) (argBih m c) (argBhh m c) (row t p) j := by
  unfold gateBlk gate
  refine congr (congrArg HAdd.hAdd (congr (congrArg HAdd.hAdd (Finset.sum_congr rfl fun k _ => ?_))
    (Finset.sum_congr rfl fun k _ => ?_))) (blk_b m c t j)
  · exact congr (congrArg HMul.hMul (blk_x m c t p k)) (blk_w_lo m c t j k)
  · exact congr (congrArg HMul.hMul (blk_h m c t p k)) (blk_w_hi m c t j k)

/-- The block's next cell state at (p, q) is the specification's at batch row 256·t + p. -/
theorem cellBlk_blocks (c : Dev nD) (t : Fin cfg0.N) (p : Fin 256) (q : Fin 1024) :
    cellBlk (iblk m c 0 t) (iblk m c 1 t) (iblk m c 2 t) (iblk m c 3 t) (iblk m c 4 t) p q
      = cellNext (argX m c) (argH m c) (argC m c) (argWih m c) (argWhh m c) (argBih m c) (argBhh m c) (row t p) q := by
  unfold cellBlk cellNext
  rw [gateBlk_blocks, gateBlk_blocks, gateBlk_blocks, blk_c]

/-- The block's next hidden state at (p, q) is the specification's at batch row 256·t + p. -/
theorem hiddenBlk_blocks (c : Dev nD) (t : Fin cfg0.N) (p : Fin 256) (q : Fin 1024) :
    hiddenBlk (iblk m c 0 t) (iblk m c 1 t) (iblk m c 2 t) (iblk m c 3 t) (iblk m c 4 t) p q
      = hiddenNext (argX m c) (argH m c) (argC m c) (argWih m c) (argWhh m c) (argBih m c) (argBhh m c) (row t p) q := by
  unfold hiddenBlk hiddenNext
  rw [gateBlk_blocks, cellBlk_blocks]

end Cert.KernelIdeal.Blocks

end
-- ==== Proof.KernelValue.lean ====
/-
  The two result arrays after the run.

  Point t of the 16-point grid writes back, to each output, the block of rows 256·t … 256·t + 255; what it writes is
  the body's stored block over point t's staged blocks, which is the specification's array read through that block
  of rows. The 16 blocks tile the 4096 rows (row r is in the block of point r / 256), so each result array ends
  holding the specification's array whole.
-/
import proofs.«132418_j76630806496011_2_alg».proof.Proof.Gen.KernelIdeal.Value
import proofs.«132418_j76630806496011_2_alg».proof.Proof.BodyValue
import proofs.«132418_j76630806496011_2_alg».proof.Proof.KernelBlocks

noncomputable section

namespace Cert.KernelIdeal.Result

open Cert.KernelIdeal Cert.KernelIdeal.Gen Cert.KernelIdeal.Value Cert.KernelIdeal.Body Cert.KernelIdeal.Blocks
open Idealize.ShloMosaic Idealize.ShloMosaic.TcCoe Idealize.SL.Sem Idealize.ShloMosaic.ValueIdx Cert.LstmCell
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The next hidden state of the launch arguments. -/
abbrev hiddenOf (c : Dev nD) : FVec Ideal SMat .f32 :=
  hiddenArr (argX m c) (argH m c) (argC m c) (argWih m c) (argWhh m c) (argBih m c) (argBhh m c)
/-- The next cell state of the launch arguments. -/
abbrev cellOf (c : Dev nD) : FVec Ideal SMat .f32 :=
  cellArr (argX m c) (argH m c) (argC m c) (argWih m c) (argWhh m c) (argBih m c) (argBhh m c)

/-- WHAT POINT `t` WRITES BACK to the hidden-state output is block `t` of the specification's array. -/
theorem flushed_hidden (c : Dev nD) (t : Fin cfg0.N) :
    (dats m 0 c).flushed 5 t = ((cfg0.win 5).blk t).view.read (Elt Ideal) (hiddenOf m c) := by
  obtain ⟨-, -, -, -, -, ⟨e0, e1⟩, -⟩ := idx_facts t
  rw [Value.flushed5]
  unfold out0_5
  simp only [View.ld_unit_zero (S := S256x1024) hz, View.ld_unit_zero (S := S4096x2048) hz, View.ld_unit_zero (S := S1x4096) hz]
  funext y
  obtain ⟨p, q, rfl⟩ : ∃ (p : Fin 256) (q : Fin 1024), y = ix2 p q := ⟨y 0, y 1, eq_ix2 y⟩
  show View.canon ([⟨r0_0, k0_pay3 (F := Ideal) (iblk m c 0 t) (iblk m c 1 t) (iblk m c 2 t) (iblk m c 3 t) (iblk m c 4 t)⟩] : List (View.Piece (Elt Ideal) S256x1024 .f32)) (ix2 p q)
    = hiddenOf m c (((cfg0.win 5).blk t).view.emb (ix2 p q))
  refine (canon5_eq (F := Ideal) (iblk m c 0 t) (iblk m c 1 t) (iblk m c 3 t) (iblk m c 4 t) (iblk m c 2 t) (ix2 p q)).trans ?_
  refine (hidden_block_at (iblk m c 0 t) (iblk m c 1 t) (iblk m c 3 t) (iblk m c 4 t) (iblk m c 2 t) p q).trans ?_
  refine (hiddenBlk_blocks m c t p q).trans ?_
  have he : (((cfg0.win 5).blk t).view.emb (ix2 p q) : S4096x1024.Idx) = ix2 (row t p) q := by
    funext a; apply Fin.ext
    match a with
    | ⟨0, _⟩ => show win0_5.index t (0 : Fin 2) * 256 + 1 * p.val = 256 * t.val + p.val; rw [e0]; omega
    | ⟨1, _⟩ => show win0_5.index t (1 : Fin 2) * 1024 + 1 * q.val = q.val; rw [e1]; omega
  exact (congrArg (hiddenOf m c) he).symm

/-- WHAT POINT `t` WRITES BACK to the cell-state output is block `t` of the specification's array. -/
theorem flushed_cell (c : Dev nD) (t : Fin cfg0.N) :
    (dats m 0 c).flushed 6 t = ((cfg0.win 6).blk t).view.read (Elt Ideal) (cellOf m c) := by
  obtain ⟨-, -, -, -, -, -, ⟨e0, e1⟩⟩ := idx_facts t
  rw [Value.flushed6]
  unfold out0_6
  simp only [View.ld_unit_zero (S := S256x1024) hz, View.ld_unit_zero (S := S4096x2048) hz, View.ld_unit_zero (S := S1x4096) hz]
  funext y
  obtain ⟨p, q, rfl⟩ : ∃ (p : Fin 256) (q : Fin 1024), y = ix2 p q := ⟨y 0, y 1, eq_ix2 y⟩
  show View.canon ([⟨r0_0, k0_pay2 (F := Ideal) (iblk m c 0 t) (iblk m c 1 t) (iblk m c 2 t) (iblk m c 3 t) (iblk m c 4 t)⟩] : List (View.Piece (Elt Ideal) S256x1024 .f32)) (ix2 p q)
    = cellOf m c (((cfg0.win 6).blk t).view.emb (ix2 p q))
  refine (canon6_eq (F := Ideal) (iblk m c 0 t) (iblk m c 1 t) (iblk m c 3 t) (iblk m c 4 t) (iblk m c 2 t) (ix2 p q)).trans ?_
  refine (cell_block_at (iblk m c 0 t) (iblk m c 1 t) (iblk m c 3 t) (iblk m c 4 t) (iblk m c 2 t) p q).trans ?_
  refine (cellBlk_blocks m c t p q).trans ?_
  have he : (((cfg0.win 6).blk t).view.emb (ix2 p q) : S4096x1024.Idx) = ix2 (row t p) q := by
    funext a; apply Fin.ext
    match a with
    | ⟨0, _⟩ => show win0_6.index t (0 : Fin 2) * 256 + 1 * p.val = 256 * t.val + p.val; rw [e0]; omega
    | ⟨1, _⟩ => show win0_6.index t (1 : Fin 2) * 1024 + 1 * q.val = q.val; rw [e1]; omega
  exact (congrArg (cellOf m c) he).symm

/-- An entry is in point `t`'s block of the hidden-state output iff each coordinate is in the block's range. -/
theorem mem_blk5 (t : Fin cfg0.N) (i : S4096x1024.Idx) :
    i ∈ ((cfg0.win 5).blk t).view.set ↔ ∀ a : Fin 2, win0_5.index t a * S256x1024.size a ≤ (i a).val
      ∧ (i a).val < win0_5.index t a * S256x1024.size a + S256x1024.size a := by
  show i ∈ ((View.whole main_v6_0).slice (win0_5.rect t)).set ↔ _
  rw [View.set_slice_whole, Rect.mem_set_unit]
  exact Iff.rfl

/-- The same for the cell-state output. -/
theorem mem_blk6 (t : Fin cfg0.N) (i : S4096x1024.Idx) :
    i ∈ ((cfg0.win 6).blk t).view.set ↔ ∀ a : Fin 2, win0_6.index t a * S256x1024.size a ≤ (i a).val
      ∧ (i a).val < win0_6.index t a * S256x1024.size a + S256x1024.size a := by
  show i ∈ ((View.whole main_v6_1).slice (win0_6.rect t)).set ↔ _
  rw [View.set_slice_whole, Rect.mem_set_unit]
  exact Iff.rfl

/-- The point whose block holds batch row r: r / 256. -/
theorem point_of_row (i : S4096x1024.Idx) : ∃ t : Fin cfg0.N, t.val = (i 0).val / 256 := by
  have hi0 : (i 0).val < 4096 := (i 0).isLt
  exact ⟨⟨(i 0).val / 256, by rw [N16]; omega⟩, rfl⟩

/-- The 16 row blocks tile the hidden-state output. -/
theorem cover5 (i : S4096x1024.Idx) : ∃ t : Fin cfg0.N, (cfg0.win 5).flush t = true ∧ i ∈ ((cfg0.win 5).blk t).view.set := by
  have hi0 : (i 0).val < 4096 := (i 0).isLt
  have hi1 : (i 1).val < 1024 := (i 1).isLt
  obtain ⟨t, ht⟩ := point_of_row i
  obtain ⟨-, -, -, -, -, ⟨e0, e1⟩, -⟩ := idx_facts t
  refine ⟨t, flush0_5 t, ?_⟩
  rw [mem_blk5]
  intro a
  match a with
  | ⟨0, _⟩ => show win0_5.index t (0 : Fin 2) * 256 ≤ (i 0).val ∧ (i 0).val < win0_5.index t (0 : Fin 2) * 256 + 256; rw [e0, ht]; omega
  | ⟨1, _⟩ => show win0_5.index t (1 : Fin 2) * 1024 ≤ (i 1).val ∧ (i 1).val < win0_5.index t (1 : Fin 2) * 1024 + 1024; rw [e1]; omega

/-- The 16 row blocks tile the cell-state output. -/
theorem cover6 (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  obtain ⟨t, ht⟩ := point_of_row i
  obtain ⟨-, -, -, -, -, -, ⟨e0, e1⟩⟩ := idx_facts t
  refine ⟨t, flush0_6 t, ?_⟩
  rw [mem_blk6]
  intro a
  match a with
  | ⟨0, _⟩ => show win0_6.index t (0 : Fin 2) * 256 ≤ (i 0).val ∧ (i 0).val < win0_6.index t (0 : Fin 2) * 256 + 256; rw [e0, ht]; omega
  | ⟨1, _⟩ => show win0_6.index t (1 : Fin 2) * 1024 ≤ (i 1).val ∧ (i 1).val < win0_6.index t (1 : Fin 2) * 1024 + 1024; rw [e1]; omega

/-- THE HIDDEN-STATE OUTPUT after the run is the specification's array. -/
theorem final_hidden (c : Dev nD) : (dats m 0 c).arrAt 5 cfg0.N = hiddenOf m c :=
  (dats m 0 c).arrAt_eq_of_cover 5 (hiddenOf m c) (fun t _ => flushed_hidden m c t) cover5

/-- THE CELL-STATE OUTPUT after the run is the specification's array. -/
theorem final_cell (c : Dev nD) : (dats m 0 c).arrAt 6 cfg0.N = cellOf m c :=
  (dats m 0 c).arrAt_eq_of_cover 6 (cellOf m c) (fun t _ => flushed_cell m c t) cover6

/-- The run, read: each result array at the specification's function of the arguments, the arguments unchanged. -/
theorem run : θ_run defs (onTc (τ := τ) (main (F := Ideal))) ⟨m, fun _ => 0, ρ⟩ fun r => ∀ c : Dev nD,
      r.2.mem ((c : Thread nD τ).loc main_v6_0) = hiddenOf m c
      ∧ r.2.mem ((c : Thread nD τ).loc main_v6_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_hidden m c), (h c).2.1.trans (final_cell m c), (h c).2.2⟩)
    (Value.run_blocks m ρ)

end Cert.KernelIdeal.Result

end
-- ==== Proof.RefGate.lean ====
/-
  The host program's pre-activation, read at one entry.

  The host computes x · w_ihᵀ and h · w_hhᵀ as two products (each weight matrix transposed first, the previous hidden
  state recast from [1, 4096, 1024] to [4096, 1024] first), adds them, and adds the two biases' sum broadcast down the
  rows. Read at (r, j) through the generated one-operation-at-a-time lemmas this is the specification's `gate r j`:
  every index function composes to the evident coordinates, and the recast's row-major arithmetic
  ((r · 1024 + k) / 1024 = r, (r · 1024 + k) mod 1024 = k) is linear arithmetic.
-/
import proofs.«132418_j76630806496011_2_alg».proof.Proof.Gen.ReferenceIdeal.Read
import proofs.«132418_j76630806496011_2_alg».proof.Proof.Spec

noncomputable section

open scoped BigOperators

namespace Cert.ReferenceIdeal.RefValue

open Cert.ReferenceIdeal Cert.ReferenceIdeal.Read Idealize.ShloMosaic Idealize.ShloMosaic.ValueIdx Cert.LstmCell

variable (x0 : (⟨S4096x1024, .f32⟩ : BufTy).Contents (Elt Ideal)) (x1 x2 : (⟨S1x4096x1024, .f32⟩ : BufTy).Contents (Elt Ideal))
  (x3 x4 : (⟨S4096x1024, .f32⟩ : BufTy).Contents (Elt Ideal)) (x5 x6 : (⟨S4096, .f32⟩ : BufTy).Contents (Elt Ideal))

/-- A state array recast to [4096, 1024], read at (r, k): the state at (0, r, k). -/
theorem state_at (r : Fin 4096) (k : Fin 1024) : idx_main_v0 (ix2 r k) = ix3 0 r k := by
  have hr := r.isLt; have hk := k.isLt
  funext a; apply Fin.ext
  match a with
  | ⟨0, _⟩ => rfl
  | ⟨1, _⟩ => show (r.val * 1024 + k.val) / 1024 % 4096 = r.val; omega
  | ⟨2, _⟩ => show (r.val * 1024 + k.val) % 1024 = k.val; omega

/-- The same for the second state array (the two recasts are one function). -/
theorem state_at' (r : Fin 4096) (k : Fin 1024) : idx_main_v1 (ix2 r k) = ix3 0 r k := state_at r k

/-- THE HOST'S PRE-ACTIVATION AT AN ENTRY is the specification's. -/
theorem v10_at (r j : Fin 4096) :
    val_main_v10 (F := Ideal) x0 x1 x3 x4 x5 x6 (ix2 r j) = gate x0 x1 x3 x4 x5 x6 r j := by
  rw [val_main_v10_apply, val_main_v6_apply, val_main_v3_apply, val_main_v5_apply, val_main_v9_apply, val_main_v8_apply,
    val_main_v7_apply]
  simp only [Ideal.addf_def]
  unfold gate
  refine congr (congrArg HAdd.hAdd (congr (congrArg HAdd.hAdd (Finset.sum_congr rfl fun k _ => ?_))
    (Finset.sum_congr rfl fun k _ => ?_))) (congr (congrArg HAdd.hAdd ?_) ?_)
  · rw [val_main_v2_apply]
    refine congr (congrArg HMul.hMul (congrArg x0 ?_)) (congrArg x3 ?_)
    · funext a; match a with | ⟨0, _⟩ => rfl | ⟨1, _⟩ => rfl
    · funext a; match a with | ⟨0, _⟩ => rfl | ⟨1, _⟩ => rfl
  · rw [val_main_v0_apply, val_main_v4_apply]
    refine congr (congrArg HMul.hMul (congrArg x1 ?_)) (congrArg x4 ?_)
    · exact (congrArg idx_main_v0 (show lidx_main_v5 (ix2 r j) k = ix2 r k from by
        funext a; match a with | ⟨0, _⟩ => rfl | ⟨1, _⟩ => rfl)).trans (state_at r k)
    · funext a; match a with | ⟨0, _⟩ => rfl | ⟨1, _⟩ => rfl
  · refine congrArg x5 ?_
    funext a; match a with | ⟨0, _⟩ => rfl
  · refine congrArg x6 ?_
    funext a; match a with | ⟨0, _⟩ => rfl

end Cert.ReferenceIdeal.RefValue

end
-- ==== Proof.LibSpellings.lean ====
/-
  Four places where a host program and a kernel spell one value differently, or where a recast only renames an
  index — each stated once, over the library alone, at the extended reals where floats are involved.

    * `ofBits_one_f32`: the 32-bit word 0x3F800000 is the number 1.
    * `hostQuotient_eq_logistic`: the host's expansion of the sigmoid, 1 / (1 + exp (-y)) with its ones written as
      that word, is the one-operation sigmoid: both are `Ideal.div 1 (1 + exp (-y))`, on every extended real.
    * `sitofp_setWidth_bit`: a one-bit word widened to 32 bits and read as a signed integer is the bit read as an
      unsigned integer (the widening puts zeros in front, so the sign bit is 0): the kernel's convert of a widened
      comparison bit is the host's convert of the bit.
    * `shapeCast_ab_11ab_apply`: an `[a, b]` matrix recast to `[1, 1, a, b]` reads, at (u, v, i, j), the matrix at
      (i, j): two unit axes in front add nothing to the row-major position.
  None needs a finiteness hypothesis.
-/
import Idealize.ShloMosaic.PureOps.Ideal
import Idealize.ShloMosaic.Lib.ValueIdx
import Idealize.ShloMosaic.Lib.ValueLayout
import Idealize.ShloMosaic.Lib.KernelVsHost

noncomputable section

namespace Cert.LibSpellings

open Idealize.ShloMosaic Idealize.ShloMosaic.ValueIdx

/-- The word 0x3F800000 is the number one. -/
theorem ofBits_one_f32 : Ideal.ofBits .f32 0x3F800000#32 = 1 := by
  simp [Ideal.ofBits, Ideal.ieee, -EReal.coe_mul]; norm_num

/-- The quotient 1 / (1 + exp (-y)), its ones written as words, is sigma(y): both are `Ideal.div 1 (1 + exp (-y))`. -/
theorem hostQuotient_eq_logistic (y : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf y)))
    = FloatOps.logistic y := by
  rw [Ideal.ofBits_def, ofBits_one_f32]; rfl

/-- A bit widened to 32 bits and read signed is the bit read unsigned: zero or one either way. -/
theorem sitofp_setWidth_bit (φ : FTy) (b : BitVec 1) :
    FloatOps.sitofp (F := Ideal) φ (b.setWidth 32) = FloatOps.uitofp (F := Ideal) φ b := by
  show (((b.setWidth 32).toInt : ℝ) : EReal) = ((b.toNat : ℝ) : EReal)
  rw [toInt_setWidth_bit]; norm_cast

/-- An `[a, b]` matrix recast to `[1, 1, a, b]` reads, at `(u, v, i, j)`, the matrix at `(i, j)`: the two unit axes
    contribute nothing to the row-major position. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    rw [Shape.rowMajor_val_four, Shape.rowMajor_val_two]
    show i.val * b + j.val = ((u.val * 1 + v.val) * a + i.val) * b + j.val
    have hu : u.val = 0 := Nat.lt_one_iff.mp u.isLt
    have hv : v.val = 0 := Nat.lt_one_iff.mp v.isLt
    simp only [hu, hv, Nat.zero_mul, Nat.zero_add])

end Cert.LibSpellings

end
-- ==== Proof.RefValue.lean ====
/-
  The host program's two results are the specification's two arrays.

  After the pre-activation the host slices out the four gates' 1024 columns each, applies the sigmoid written out as
  1 / (1 + exp(−y)) to the input, forget and output gates and tanh to the candidate, and combines them with the
  previous cell state. Entry by entry that is `cellNext` and `hiddenNext`: each slice reads the pre-activation at
  column (offset + q), the written-out sigmoid is the one-operation sigmoid on every extended real, and the host's
  tanh and the vector unit's are one function at the ideal values.
-/
import proofs.«132418_j76630806496011_2_alg».proof.Proof.RefGate
import proofs.«132418_j76630806496011_2_alg».proof.Proof.LibSpellings

noncomputable section

namespace Cert.ReferenceIdeal.RefValue

open Cert.ReferenceIdeal Cert.ReferenceIdeal.Read Idealize.ShloMosaic Idealize.ShloMosaic.ValueIdx Cert.LstmCell

variable (x0 : (⟨S4096x1024, .f32⟩ : BufTy).Contents (Elt Ideal)) (x1 x2 : (⟨S1x4096x1024, .f32⟩ : BufTy).Contents (Elt Ideal))
  (x3 x4 : (⟨S4096x1024, .f32⟩ : BufTy).Contents (Elt Ideal)) (x5 x6 : (⟨S4096, .f32⟩ : BufTy).Contents (Elt Ideal))

/-- The input gate's slice reads column q. -/
theorem slice_i (r : Fin 4096) (q : Fin 1024) : idx_main_v11 (ix2 r q) = ix2 r (col 0 (by decide) q) := by
  funext a; apply Fin.ext
  match a with
  | ⟨0, _⟩ => rfl
  | ⟨1, _⟩ => show q.val = 0 + q.val; omega

/-- The forget gate's slice reads column 1024 + q. -/
theorem slice_f (r : Fin 4096) (q : Fin 1024) : idx_main_v12 (ix2 r q) = ix2 r (col 1024 (by decide) q) := by
  funext a; match a with | ⟨0, _⟩ => rfl | ⟨1, _⟩ => rfl

/-- The candidate's slice reads column 2048 + q. -/
theorem slice_g (r : Fin 4096) (q : Fin 1024) : idx_main_v13 (ix2 r q) = ix2 r (col 2048 (by decide) q) := by
  funext a; match a with | ⟨0, _⟩ => rfl | ⟨1, _⟩ => rfl

/-- The output gate's slice reads column 3072 + q. -/
theorem slice_o (r : Fin 4096) (q : Fin 1024) : idx_main_v14 (ix2 r q) = ix2 r (col 3072 (by decide) q) := by
  funext a; match a with | ⟨0, _⟩ => rfl | ⟨1, _⟩ => rfl

/-- The host's next cell state at (r, q). -/
theorem cell_at (r : Fin 4096) (q : Fin 1024) :
    val_main_v30 (F := Ideal) x0 x1 x2 x3 x4 x5 x6 (ix2 r q) = cellNext x0 x1 x2 x3 x4 x5 x6 r q := by
  rw [val_main_v30_apply, val_main_v21_apply, val_main_v20_apply, val_main_v19_apply, val_main_cst_0_apply,
    val_main_v18_apply, val_main_v17_apply, val_main_cst_apply, val_main_v16_apply, val_main_v15_apply,
    val_main_v12_apply, val_main_v1_apply, val_main_v29_apply, val_main_v27_apply, val_main_v26_apply,
    val_main_cst_2_apply, val_main_v25_apply, val_main_v24_apply, val_main_cst_1_apply, val_main_v23_apply,
    val_main_v22_apply, val_main_v11_apply, val_main_v28_apply, val_main_v13_apply,
    slice_i, slice_f, slice_g, state_at', v10_at, v10_at, v10_at,
    Cert.LibSpellings.hostQuotient_eq_logistic, Cert.LibSpellings.hostQuotient_eq_logistic]
  rfl

/-- The host's next hidden state at (r, q). -/
theorem hidden_at (r : Fin 4096) (q : Fin 1024) :
    val_main_v38 (F := Ideal) x0 x1 x2 x3 x4 x5 x6 (ix2 r q) = hiddenNext x0 x1 x2 x3 x4 x5 x6 r q := by
  rw [val_main_v38_apply, val_main_v36_apply, val_main_v35_apply, val_main_cst_4_apply, val_main_v34_apply,
    val_main_v33_apply, val_main_cst_3_apply, val_main_v32_apply, val_main_v31_apply, val_main_v14_apply,
    val_main_v37_apply, cell_at, slice_o, v10_at, Cert.LibSpellings.hostQuotient_eq_logistic]
  rfl

/-- THE HOST'S NEXT CELL STATE is the specification's array. -/
theorem cell_eq : val_main_v30 (F := Ideal) x0 x1 x2 x3 x4 x5 x6 = cellArr x0 x1 x2 x3 x4 x5 x6 := by
  funext i
  obtain ⟨r, q, rfl⟩ : ∃ (r : Fin 4096) (q : Fin 1024), i = ix2 r q := ⟨i 0, i 1, eq_ix2 i⟩
  exact cell_at x0 x1 x2 x3 x4 x5 x6 r q

/-- THE HOST'S NEXT HIDDEN STATE is the specification's array. -/
theorem hidden_eq : val_main_v38 (F := Ideal) x0 x1 x2 x3 x4 x5 x6 = hiddenArr x0 x1 x2 x3 x4 x5 x6 := by
  funext i
  obtain ⟨r, q, rfl⟩ : ∃ (r : Fin 4096) (q : Fin 1024), i = ix2 r q := ⟨i 0, i 1, eq_ix2 i⟩
  exact hidden_at x0 x1 x2 x3 x4 x5 x6 r q

end Cert.ReferenceIdeal.RefValue

end
-- ==== Proof.lean ====
/-
  One step of an LSTM cell on the TPU against its jnp reference, at the extended reals.

  The kernel fuses the two products x · w_ihᵀ and h · w_hhᵀ into one: it lays [x | h] side by side as a [4096, 2048]
  matrix (block by block of 256 batch rows) against [w_ih | w_hh] laid side by side, so each pre-activation is ONE sum over 2048 positions; the
  reference computes two sums over 1024 positions and adds them. A sum over 2048 positions is the sum over its first
  half plus the sum over its second half — commutativity and associativity of addition, which hold on all of the
  extended reals — so the two pre-activations agree entry by entry with no finiteness assumption. Everything after it
  is the same operation on both sides: the biases' sum is added, the four gates are the four 1024-column slices, the
  reference's written-out sigmoid 1 / (1 + exp(−y)) is the kernel's one-operation sigmoid, tanh is tanh, and the
  format changes to and from bfloat16 are the identity on extended reals.

  Both programs' results are stated against one specification (Proof/Spec.lean: `hiddenArr`, `cellArr`): the kernel's
  through the generated frame run and value leg (Proof/KernelValue.lean), the reference's through its generated run
  and read-at-an-index lemmas (Proof/RefValue.lean). The three frame claims are the generated frames and the
  reference's run with the results dropped; the ideal pass rewrote nothing, so `preserves` is `True`.
-/
import proofs.«132418_j76630806496011_2_alg».proof.Defs
import proofs.«132418_j76630806496011_2_alg».proof.Proof.Gen.Kernel
import proofs.«132418_j76630806496011_2_alg».proof.Proof.Gen.Kernel.Frame
import proofs.«132418_j76630806496011_2_alg».proof.Proof.Gen.KernelIdeal
import proofs.«132418_j76630806496011_2_alg».proof.Proof.Gen.KernelIdeal.Frame
import proofs.«132418_j76630806496011_2_alg».proof.Proof.Gen.KernelIdeal.Value
import proofs.«132418_j76630806496011_2_alg».proof.Proof.Gen.ReferenceIdeal
import proofs.«132418_j76630806496011_2_alg».proof.Proof.Gen.ReferenceIdeal.Run
import proofs.«132418_j76630806496011_2_alg».proof.Proof.Gen.ReferenceIdeal.Read
import proofs.«132418_j76630806496011_2_alg».proof.Proof.Gen.Pre_finite_inputs
import proofs.«132418_j76630806496011_2_alg».proof.Proof.KernelValue
import proofs.«132418_j76630806496011_2_alg».proof.Proof.RefValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- Both runs end with the specification's next hidden state and next cell state of arguments that agree. -/
theorem algebraic : Cert.algebraic_KernelIdeal_ReferenceIdeal := by
  intro m ρ m' ρ' _ hagree
  refine ⟨fun c => Cert.KernelIdeal.Result.hiddenOf m c, fun c => Cert.KernelIdeal.Result.cellOf m c,
    Cert.KernelIdeal.Result.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  refine ⟨(h c).1.trans ?_, (h c).2.1.trans ?_, (h c).2.2⟩
  · rw [a0, a1, a2, a3, a4, a5, a6]
    exact (Cert.ReferenceIdeal.Read.val_main_v38_eq _ _ _ _ _ _ _).trans (Cert.ReferenceIdeal.RefValue.hidden_eq _ _ _ _ _ _ _)
  · rw [a0, a1, a2, a3, a4, a5, a6]
    exact (Cert.ReferenceIdeal.Read.val_main_v30_eq _ _ _ _ _ _ _).trans (Cert.ReferenceIdeal.RefValue.cell_eq _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
